-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096x3 : Shape := ⟨3, ![1024, 4096, 3]⟩
abbrev S1024x4096x2 : Shape := ⟨3, ![1024, 4096, 2]⟩
abbrev S1024x4096 : Shape := ⟨2, ![1024, 4096]⟩
abbrev S_ : Shape := ⟨0, ![]⟩

class Facts : Prop where
  bcast_S_S1024x4096x3 : S_.BroadcastsInDim S1024x4096x3 (![] : Fin 0 → Fin S1024x4096x3.rank)
  reducesTo_S1024x4096x3_S_d0_1_2 : S1024x4096x3.ReducesTo [0, 1, 2] S_
  h_S_ : 0 < S_.numel
  bcast_S_S1024x4096x2 : S_.BroadcastsInDim S1024x4096x2 (![] : Fin 0 → Fin S1024x4096x2.rank)
  reducesTo_S1024x4096x2_S_d0_1_2 : S1024x4096x2.ReducesTo [0, 1, 2] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x4096x3 .f32) (main_arg1 : FVec F S1024x4096x2 .f32) (main_arg2 : FVec F S1024x4096 .f32) : IVec S_ 1 :=
  let main_v0 : FVec F S1024x4096x3 .f32 := Host.absf main_arg0
  let main_cst : FVec F S_ .f32 := constant S_ .f32 0x7F800000#32
  let main_v1 : FVec F S1024x4096x3 .f32 := broadcastInDim S1024x4096x3 ![] bcast_S_S1024x4096x3 main_cst
  let main_v2 : IVec S1024x4096x3 1 := cmpf .olt main_v0 main_v1
  let main_c : IVec S_ 1 := constantI S_ 1 1#1
  let main_v3 : IVec S_ 1 := (fun x v => Host.reduce IntOp.andi x v reducesTo_S1024x4096x3_S_d0_1_2 h_S_) main_v2 main_c
  let main_v4 : FVec F S1024x4096x2 .f32 := Host.absf main_arg1
  let main_cst_0 : FVec F S_ .f32 := constant S_ .f32 0x7F800000#32
  let main_v5 : FVec F S1024x4096x2 .f32 := broadcastInDim S1024x4096x2 ![] bcast_S_S1024x4096x2 main_cst_0
  let main_v6 : IVec S1024x4096x2 1 := cmpf .olt main_v4 main_v5
  let main_c_1 : IVec S_ 1 := constantI S_ 1 1#1
  let main_v7 : IVec S_ 1 := (fun x v => Host.reduce IntOp.andi x v reducesTo_S1024x4096x2_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S1024x4096x3 : Shape := ⟨3, ![1024, 4096, 3]⟩
abbrev S1024x4096x2 : Shape := ⟨3, ![1024, 4096, 2]⟩
abbrev S1024x4096 : Shape := ⟨2, ![1024, 4096]⟩
abbrev S1024x4096x1 : Shape := ⟨3, ![1024, 4096, 1]⟩
abbrev S1x1 : Shape := ⟨2, ![1, 1]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S1024x4096x3, .f32⟩
  | .hbm, ⟨1, _⟩ => ⟨S1024x4096x2, .f32⟩
  | .hbm, ⟨2, _⟩ => ⟨S1024x4096, .f32⟩
  | .hbm, ⟨3, _⟩ => ⟨S1024x4096x1, .f32⟩
  | .hbm, ⟨4, _⟩ => ⟨S1024x4096, .f32⟩
  | .hbm, ⟨5, _⟩ => ⟨S1024x4096x1, .f32⟩
  | .hbm, ⟨6, _⟩ => ⟨S1024x4096, .f32⟩
  | .hbm, ⟨7, _⟩ => ⟨S1024x4096x1, .f32⟩
  | .hbm, ⟨8, _⟩ => ⟨S1024x4096, .f32⟩
  | .hbm, ⟨9, _⟩ => ⟨S1024x4096x1, .f32⟩
  | .hbm, ⟨10, _⟩ => ⟨S1024x4096, .f32⟩
  | .hbm, ⟨11, _⟩ => ⟨S1x1, .f32⟩
  | .hbm, ⟨12, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x1, .f32⟩
  | .local _ .vmem, ⟨11, _⟩ => ⟨S1x1, .f32⟩
  | _, _ => ⟨S1024x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c1_i32 : BitVec 32 := 1#32
  let v41 : BitVec 1 := Scalar.cmpi .eq arg1 c1_i32
  let v42 : BitVec 1 := Scalar.andi v40 v41
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  slices_S1024x4096x3_S1024x4096x1_0_0_0 : S1024x4096x3.Slices ![0, 0, 0] S1024x4096x1
  shapeCasts_S1024x4096x1_S1024x4096 : S1024x4096x1.ShapeCasts S1024x4096
  slices_S1024x4096x3_S1024x4096x1_0_0_1 : S1024x4096x3.Slices ![0, 0, 1] S1024x4096x1
  slices_S1024x4096x2_S1024x4096x1_0_0_0 : S1024x4096x2.Slices ![0, 0, 0] S1024x4096x1
  slices_S1024x4096x2_S1024x4096x1_0_0_1 : S1024x4096x2.Slices ![0, 0, 1] S1024x4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S1024x4096.size a
  hwx0_0 : ∀ i : grid0.Coords, EltTy.bits .f32 = 32 ∨ (Rect.block (s := S1024x4096) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x4096.size a
  hwx0_1 : ∀ i : grid0.Coords, EltTy.bits .f32 = 32 ∨ (Rect.block (s := S1024x4096) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S1024x4096.size a
  hwx0_2 : ∀ i : grid0.Coords, EltTy.bits .f32 = 32 ∨ (Rect.block (s := S1024x4096) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S1024x4096.size a
  hwx0_3 : ∀ i : grid0.Coords, EltTy.bits .f32 = 32 ∨ (Rect.block (s := S1024x4096) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S1024x4096.size a
  hwx0_4 : ∀ i : grid0.Coords, EltTy.bits .f32 = 32 ∨ (Rect.block (s := S1024x4096) S128x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x4096x3 : Shape := ⟨3, ![1024, 4096, 3]⟩
abbrev S1024x4096x2 : Shape := ⟨3, ![1024, 4096, 2]⟩
abbrev S1024x4096 : Shape := ⟨2, ![1024, 4096]⟩
abbrev S1024x4096x1 : Shape := ⟨3, ![1024, 4096, 1]⟩
abbrev S_ : Shape := ⟨0, ![]⟩
abbrev S1024 : Shape := ⟨1, ![1024]⟩
abbrev S1024x1 : Shape := ⟨2, ![1024, 1]⟩

abbrev nBuf : Space → Nat
  | .hbm => 46
  | .vmem => 0
  | .smem => 0
  | _ => 0

abbrev bufTy : (tb : Table) → Fin (tcTables nBuf tb) → BufTy
  | .hbm, ⟨0, _⟩ => ⟨S1024x4096x3, .f32⟩
  | .hbm, ⟨1, _⟩ => ⟨S1024x4096x2, .f32⟩
  | .hbm, ⟨2, _⟩ => ⟨S1024x4096, .f32⟩
  | .hbm, ⟨3, _⟩ => ⟨S1024x4096x1, .f32⟩
  | .hbm, ⟨4, _⟩ => ⟨S1024x4096, .f32⟩
  | .hbm, ⟨5, _⟩ => ⟨S_, .f32⟩
  | .hbm, ⟨6, _⟩ => ⟨S1024x4096, .f32⟩
  | .hbm, ⟨7, _⟩ => ⟨S1024x4096, .f32⟩
  | .hbm, ⟨8, _⟩ => ⟨S_, .f32⟩
  | .hbm, ⟨9, _⟩ => ⟨S1024x4096, .f32⟩
  | .hbm, ⟨10, _⟩ => ⟨S1024x4096, .f32⟩
  | .hbm, ⟨11, _⟩ => ⟨S1024x4096x1, .f32⟩
  | .hbm, ⟨12, _⟩ => ⟨S1024x4096, .f32⟩
  | .hbm, ⟨13, _⟩ => ⟨S_, .f32⟩
  | .hbm, ⟨14, _⟩ => ⟨S1024x4096, .f32⟩
  | .hbm, ⟨15, _⟩ => ⟨S1024x4096, .f32⟩
  | .hbm, ⟨16, _⟩ => ⟨S_, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S1024x4096x1, .f32⟩
  | .hbm, ⟨23, _⟩ => ⟨S1024x4096, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S1024x4096, .f32⟩
  | .hbm, ⟨31, _⟩ => ⟨S1024x4096, .f32⟩
  | .hbm, ⟨32, _⟩ => ⟨S1024x1, .f32⟩
  | .hbm, ⟨33, _⟩ => ⟨S1024x4096, .f32⟩
  | .hbm, ⟨34, _⟩ => ⟨S1024x4096, .f32⟩
  | .hbm, ⟨35, _⟩ => ⟨S1024x4096x1, .f32⟩
  | .hbm, ⟨36, _⟩ => ⟨S1024x4096x1, .f32⟩
  | .hbm, ⟨37, _⟩ => ⟨S1024x4096x2, .f32⟩
  | .hbm, ⟨38, _⟩ => ⟨S1024x4096x2, .f32⟩
  | .hbm, ⟨39, _⟩ => ⟨S1024x4096x2, .f32⟩
  | .hbm, ⟨40, _⟩ => ⟨S_, .f32⟩
  | .hbm, ⟨41, _⟩ => ⟨S1024x4096, .f32⟩
  | .hbm, ⟨42, _⟩ => ⟨S1024x4096, .f32⟩
  | .hbm, ⟨43, _⟩ => ⟨S1024x4096, .f32⟩
  | .hbm, ⟨44, _⟩ => ⟨S_, .f32⟩
  | .hbm, ⟨45, _⟩ => ⟨S_, .f32⟩
  | _, _ => ⟨S1024x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S1024x4096x3_S1024x4096x1_0_0_0 : S1024x4096x3.Slices ![0, 0, 0] S1024x4096x1
  shapeCasts_S1024x4096x1_S1024x4096 : S1024x4096x1.ShapeCasts S1024x4096
  bcast_S_S1024x4096 : S_.BroadcastsInDim S1024x4096 (![] : Fin 0 → Fin S1024x4096.rank)
  slices_S1024x4096x3_S1024x4096x1_0_0_1 : S1024x4096x3.Slices ![0, 0, 1] S1024x4096x1
  slices_S1024x4096x3_S1024x4096x1_0_0_2 : S1024x4096x3.Slices ![0, 0, 2] S1024x4096x1
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  bcast_S1024x4096_S1024x4096x1_0_1 : S1024x4096.BroadcastsInDim S1024x4096x1 (![0, 1] : Fin 2 → Fin S1024x4096x1.rank)
  concatenates_S1024x4096x1_S1024x4096x1_S1024x4096x2_d2 : Shape.Concatenates [S1024x4096x1, S1024x4096x1] S1024x4096x2 2
  reducesTo_S1024x4096x2_S1024x4096_d2 : S1024x4096x2.ReducesTo [2] S1024x4096
  reducesTo_S1024x4096_S_d0_1 : S1024x4096.ReducesTo [0, 1] S_

variable [Facts₀]

class Facts : Prop extends Facts₀ where

variable [Facts]
-- ==== Proof.LibMoments.lean ====
/-
  Pure mathematics on the extended reals \`[-∞, +∞]\`, for a batch normalisation over many rows whose mean and
  variance are computed in two ways.

  * A finite sum of (coercions of) reals is the coercion of the real sum (\`coe_finset_sum\`).
  * \`IsReal x\`: the extended real \`x\` is (the coercion of) a real. The reals are closed under \`0\`, \`1\`, \`+\`, \`-\`,
    \`*\`, negation, \`max\`, \`min\`, finite sums, the reciprocal square root of a positive real, and division by a
    nonzero real; so an accumulating scatter of reals into reals is real at every index, and a gather of an
    array that satisfies a predicate everywhere satisfies it everywhere.
  * A sum over \`a * b\` rows is the sum over \`a\` tiles of the sums over the \`b\` rows of each tile
    (\`sum_fin_mul\`; at \`250 × 2000 = 500000\`, \`sum_fin_500000\`).
  * The mean of the squared deviations from the mean is the mean of the squares minus the square of the mean:
    over the reals (\`variance_real\`), and, for real-valued data, on the extended reals with the quotient
    \`Ideal.div\` by the real count (\`variance_ereal\`).
-/
import Idealize.ShloMosaic.PureOps.Ideal
import Idealize.ShloMosaic.PureOps.Ideal.Laws
import Mathlib.Data.EReal.Inv
import Mathlib.Data.Fintype.BigOperators
import Mathlib.Logic.Equiv.Fin.Basic
import Mathlib.Tactic

noncomputable section

open Idealize.ShloMosaic

namespace Cert.LibMoments

open scoped BigOperators

/-! ## Sums of reals stay real -/

/-- A finite sum of coercions of reals into the extended reals is the coercion of the real sum:
    \`∑ i ∈ s, (f i : EReal) = ((∑ i ∈ s, f i : ℝ) : EReal)\`. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The same over a whole finite type: \`∑ i, (f i : EReal) = ((∑ i, f i : ℝ) : EReal)\`. -/
theorem coe_fintype_sum {ι : Type*} [Fintype ι] (f : ι → ℝ) :
    (∑ i, ((f i : ℝ) : EReal)) = ((∑ i, f i : ℝ) : EReal) :=
  coe_finset_sum Finset.univ f

/-! ## The predicate "is a real" -/

/-- An extended real is REAL when it is the coercion of a real number (it is neither \`⊤\` nor \`⊥\`). -/
def IsReal (x : EReal) : Prop := ∃ r : ℝ, x = (r : EReal)

namespace IsReal

/-- The coercion of a real is real. -/
theorem coe (r : ℝ) : IsReal (r : EReal) := ⟨r, rfl⟩

/-- \`0\` is real. -/
theorem zero : IsReal (0 : EReal) := ⟨0, rfl⟩

/-- \`1\` is real. -/
theorem one : IsReal (1 : EReal) := ⟨1, rfl⟩

/-- A real is neither infinity. -/
theorem ne_top {x : EReal} (hx : IsReal x) : x ≠ ⊤ := by
  obtain ⟨a, rfl⟩ := hx; exact EReal.coe_ne_top a

/-- A real is neither infinity. -/
theorem ne_bot {x : EReal} (hx : IsReal x) : x ≠ ⊥ := by
  obtain ⟨a, rfl⟩ := hx; exact EReal.coe_ne_bot a

/-- An extended real that is neither infinity is real. -/
theorem of_ne {x : EReal} (ht : x ≠ ⊤) (hb : x ≠ ⊥) : IsReal x :=
  ⟨x.toReal, (EReal.coe_toReal ht hb).symm⟩

/-- The sum of two reals is real. -/
theorem add {x y : EReal} (hx : IsReal x) (hy : IsReal y) : IsReal (x + y) := by
  obtain ⟨a, rfl⟩ := hx; obtain ⟨b, rfl⟩ := hy
  exact ⟨a + b, (EReal.coe_add a b).symm⟩

/-- The difference of two reals is real. -/
theorem sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem mul {x y : EReal} (hx : IsReal x) (hy : IsReal y) : IsReal (x * y) := by
  obtain ⟨a, rfl⟩ := hx; obtain ⟨b, rfl⟩ := hy
  exact ⟨a * b, (EReal.coe_mul a b).symm⟩

/-- The negation of a real is real. -/
theorem neg {x : EReal} (hx : IsReal x) : IsReal (-x) := by
  obtain ⟨a, rfl⟩ := hx
  exact ⟨-a, (EReal.coe_neg a).symm⟩

/-- The maximum of two reals is real. -/
theorem max {x y : EReal} (hx : IsReal x) (hy : IsReal y) : IsReal (max x y) := by
  rcases le_total x y with h | h
  · rw [max_eq_right h]; exact hy
  · rw [max_eq_left h]; exact hx

/-- The minimum of two reals is real. -/
theorem min {x y : EReal} (hx : IsReal x) (hy : IsReal y) : IsReal (min x y) := by
  rcases le_total x y with h | h
  · rw [min_eq_left h]; exact hx
  · rw [min_eq_right h]; exact hy

/-- A finite sum of reals is real. -/
theorem sum {ι : Type*} (s : Finset ι) (f : ι → EReal) (h : ∀ i ∈ s, IsReal (f i)) :
    IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A sum of reals over a whole finite type is real. -/
theorem fintype_sum {ι : Type*} [Fintype ι] (f : ι → EReal) (h : ∀ i, IsReal (f i)) : IsReal (∑ i, f i) :=
  sum Finset.univ f fun i _ => h i

end IsReal

/-! ## The reciprocal square root and the quotient by a real constant -/

/-- The reciprocal square root of a positive real \`r\` is the real \`(√r)⁻¹\`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The quotient of a real \`a\` by a nonzero real \`c\` is the real \`a / c\`. -/
theorem div_coe_coe (a : ℝ) {c : ℝ} (hc : c ≠ 0) : Ideal.div (a : EReal) (c : EReal) = ((a / c : ℝ) : EReal) := by
  rw [Ideal.div_coe hc, ← EReal.coe_mul, mul_one_div]

namespace IsReal

/-- The reciprocal square root of a positive real is real. -/
theorem rsqrt_of_pos {x : EReal} (hx : IsReal x) (h : 0 < x) : IsReal (Ideal.rsqrt x) := by
  obtain ⟨r, rfl⟩ := hx
  rw [rsqrt_coe_of_pos (EReal.coe_pos.mp h)]
  exact coe _

/-- The reciprocal square root of a real that is at least \`1\` is real. -/
theorem rsqrt {x : EReal} (hx : IsReal x) (h : (1 : EReal) ≤ x) : IsReal (Ideal.rsqrt x) :=
  hx.rsqrt_of_pos (lt_of_lt_of_le zero_lt_one h)

/-- The quotient of a real by a nonzero real constant is real. -/
theorem div_const {x : EReal} (hx : IsReal x) {c : ℝ} (hc : c ≠ 0) : IsReal (Ideal.div x (c : EReal)) := by
  obtain ⟨a, rfl⟩ := hx
  rw [div_coe_coe a hc]
  exact coe _

/-- An accumulating scatter — each operand element plus the sum of the update elements that land on it — of real
    updates into a real operand is real at every index. -/
theorem hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (sum _ _ fun j _ => hu j)

end IsReal

/-- A gather reads the operand at some index, so whatever holds of the operand at every index holds of the
    gathered array at every index. -/
theorem gather_of_forall {s si t : Shape} {α : Type} {w : Nat} (d : GatherDims s si t) (x : s.Idx → α) (idx : IVec si w)
    (P : α → Prop) (h : ∀ i, P (x i)) (j : t.Idx) : P (Host.gather d x idx j) :=
  h _

/-- In particular a gather of an array of reals is an array of reals. -/
theorem IsReal.gather {s si t : Shape} {w : Nat} (d : GatherDims s si t) (x : s.Idx → EReal) (idx : IVec si w)
    (h : ∀ i, IsReal (x i)) (j : t.Idx) : IsReal (Host.gather d x idx j) :=
  gather_of_forall d x idx IsReal h j

/-! ## Regrouping a sum over \`a * b\` rows into \`a\` tiles of \`b\` rows -/

/-- Row \`r\` of tile \`t\`, among \`a\` tiles of \`b\` rows, is a row below \`a * b\`. -/
theorem tile_row_lt {a b : ℕ} (t : Fin a) (r : Fin b) : b * t.val + r.val < a * b := by
  have ht := t.isLt
  have hr := r.isLt
  calc b * t.val + r.val < b * t.val + b := by omega
    _ = b * (t.val + 1) := by ring
    _ ≤ b * a := Nat.mul_le_mul_left _ ht
    _ = a * b := Nat.mul_comm _ _

/-- A sum over \`a * b\` rows is the sum over the \`a\` tiles of the sum over the \`b\` rows of each tile, row \`r\` of tile \`t\`
    being row \`b * t + r\`. -/
theorem sum_fin_mul {M : Type*} [AddCommMonoid M] (a b : ℕ) (f : Fin (a * b) → M) :
    ∑ n : Fin (a * b), f n = ∑ t : Fin a, ∑ r : Fin b, f ⟨b * t.val + r.val, tile_row_lt t r⟩ := by
  rw [← Fintype.sum_equiv finProdFinEquiv (fun p : Fin a × Fin b => f (finProdFinEquiv p)) f (fun _ => rfl),
    Fintype.sum_prod_type]
  refine Finset.sum_congr rfl fun t _ => Finset.sum_congr rfl fun r _ => ?_
  congr 1
  apply Fin.ext
  simp only [finProdFinEquiv_apply_val]
  exact Nat.add_comm _ _

/-- The case of \`500000 = 250 × 2000\` rows: the sum over all rows is the sum over 250 tiles of the sums over the 2000
    rows of each tile. -/
theorem sum_fin_500000 {M : Type*} [AddCommMonoid M] (f : Fin 500000 → M) :
    ∑ n : Fin 500000, f n = ∑ t : Fin 250, ∑ r : Fin 2000, f ⟨2000 * t.val + r.val, by omega⟩ :=
  sum_fin_mul 250 2000 f

/-! ## The two variance formulas -/

/-- Over the reals, with \`N\` the number of data points and \`μ = (∑ x) / N\` their mean, the mean of the squared
    deviations from the mean is the mean of the squares minus the square of the mean:
    \`(∑ (x - μ)²) / N = (∑ x²) / N - μ · μ\`. -/
theorem variance_real {ι : Type*} [Fintype ι] (x : ι → ℝ) (N : ℝ) (hN : N = (Fintype.card ι : ℝ)) (hN0 : N ≠ 0) :
    (∑ i, (x i - (∑ i, x i) / N) ^ 2) / N
      = (∑ i, (x i) ^ 2) / N - ((∑ i, x i) / N) * ((∑ i, x i) / N) := by
  set S : ℝ := ∑ i, x i with hS
  set Q : ℝ := ∑ i, (x i) ^ 2 with hQ
  have h1 : ∑ i, (x i - S / N) ^ 2 = Q - 2 * (S / N) * S + N * (S / N) ^ 2 := by
    have h2 : ∀ i, (x i - S / N) ^ 2 = (x i) ^ 2 - 2 * (S / N) * x i + (S / N) ^ 2 := fun i => by ring
    simp only [h2, Finset.sum_add_distrib, Finset.sum_sub_distrib, ← Finset.mul_sum, Finset.sum_const,
      Finset.card_univ, nsmul_eq_mul, ← hN, ← hS, ← hQ]
  rw [h1]
  field_simp
  ring

/-- The same with the squares written as products, the shape the extended-real statement below reduces to. -/
theorem variance_real_mul {ι : Type*} [Fintype ι] (x : ι → ℝ) (N : ℝ) (hN : N = (Fintype.card ι : ℝ)) (hN0 : N ≠ 0) :
    (∑ i, (x i - (∑ i, x i) / N) * (x i - (∑ i, x i) / N)) / N
      = (∑ i, x i * x i) / N - ((∑ i, x i) / N) * ((∑ i, x i) / N) := by
  have h := variance_real x N hN hN0
  simp only [pow_two] at h
  exact h

/-- On the extended reals, for data \`h\` that are all real and \`N\` their (nonzero) number, with the mean
    \`μ = (0 + ∑ h) / N\` taken by the quotient \`Ideal.div\`: the mean of the squared deviations is the mean of the squares
    minus the square of the mean, \`(0 + ∑ (h - μ) · (h - μ)) / N = (0 + ∑ h · h) / N - μ · μ\`. (The leading \`0 +\` is the
    initial value of the sums.) -/
theorem variance_ereal {ι : Type*} [Fintype ι] (h : ι → EReal) (hh : ∀ i, IsReal (h i)) (N : ℝ)
    (hN : N = (Fintype.card ι : ℝ)) (hN0 : N ≠ 0) :
    Ideal.div (0 + ∑ i, (h i - Ideal.div (0 + ∑ i, h i) (N : EReal)) * (h i - Ideal.div (0 + ∑ i, h i) (N : EReal))) (N : EReal)
      = Ideal.div (0 + ∑ i, h i * h i) (N : EReal)
        - Ideal.div (0 + ∑ i, h i) (N : EReal) * Ideal.div (0 + ∑ i, h i) (N : EReal) := by
  choose x hx using hh
  obtain rfl : h = fun i => ((x i : ℝ) : EReal) := funext hx
  simp only [zero_add]
  rw [coe_fintype_sum, div_coe_coe _ hN0]
  simp only [← EReal.coe_sub, ← EReal.coe_mul]
  rw [coe_fintype_sum, coe_fintype_sum, div_coe_coe _ hN0, div_coe_coe _ hN0, ← EReal.coe_sub]
  exact congrArg _ (variance_real_mul x N hN hN0)

/-- The same for data indexed by \`Fin n\`, \`n ≠ 0\`, the count being the real \`n\`. -/
theorem variance_ereal_fin {n : ℕ} (hn : n ≠ 0) (h : Fin n → EReal) (hh : ∀ i, IsReal (h i)) :
    Ideal.div (0 + ∑ i, (h i - Ideal.div (0 + ∑ i, h i) ((n : ℝ) : EReal))
        * (h i - Ideal.div (0 + ∑ i, h i) ((n : ℝ) : EReal))) ((n : ℝ) : EReal)
      = Ideal.div (0 + ∑ i, h i * h i) ((n : ℝ) : EReal)
        - Ideal.div (0 + ∑ i, h i) ((n : ℝ) : EReal) * Ideal.div (0 + ∑ i, h i) ((n : ℝ) : EReal) :=
  variance_ereal h hh (n : ℝ) (by rw [Fintype.card_fin]) (Nat.cast_ne_zero.mpr hn)

/-- The case of \`500000\` data points, the count being the real \`500000\`. -/
theorem variance_ereal_500000 (h : Fin 500000 → EReal) (hh : ∀ i, IsReal (h i)) :
    Ideal.div (0 + ∑ i, (h i - Ideal.div (0 + ∑ i, h i) ((500000 : ℝ) : EReal))
        * (h i - Ideal.div (0 + ∑ i, h i) ((500000 : ℝ) : EReal))) ((500000 : ℝ) : EReal)
      = Ideal.div (0 + ∑ i, h i * h i) ((500000 : ℝ) : EReal)
        - Ideal.div (0 + ∑ i, h i) ((500000 : ℝ) : EReal) * Ideal.div (0 + ∑ i, h i) ((500000 : ℝ) : EReal) :=
  variance_ereal h hh (500000 : ℝ) (by rw [Fintype.card_fin]; norm_num) (by norm_num)

end Cert.LibMoments
-- ==== Proof.Spec.lean ====
/-
  The loss, as mathematics on the extended reals. For each batch row `b` and point `n` the projected point
  `((x + 1) / 2, 1 - (y + 1) / 2)` is compared with a reference point `(p, q)`, and the weighted Euclidean
  distances `w · √((…)² + (…)²)` are summed over all `1024 × 4096` pairs `(b, n)`.

  One side adds the pairs up in one sum; the other cuts the `(b, n)` plane into `8 × 2` tiles of `128 × 2048`
  pairs, sums each tile, and adds the sixteen tile sums one after the other onto a running total that starts at
  `0`. Addition of extended reals is commutative and associative (also at the infinities), so the two agree:
  `runSum_last` and `sum_tiles`. No finiteness is used.
-/
import Idealize.ShloMosaic.PureOps.Ideal
import Idealize.ShloMosaic.PureOps.Ideal.Laws
import Idealize.ShloMosaic.Lib.ValueIdx
import proofs.«178135_j77506979823876_2_alg».proof.Proof.LibMoments

noncomputable section

open Idealize.ShloMosaic Idealize.ShloMosaic.ValueIdx
open scoped BigOperators

namespace Cert.Spec

/-- The shapes of the three arguments: points `[1024, 4096, 3]`, reference points `[1024, 4096, 2]`, weights
    `[1024, 4096]`. -/
abbrev Pts : Shape := ⟨3, ![1024, 4096, 3]⟩
abbrev Refs : Shape := ⟨3, ![1024, 4096, 2]⟩
abbrev Wts : Shape := ⟨2, ![1024, 4096]⟩

/-- The float literals `1.0` and `0.5`, as the extended reals their words denote. -/
abbrev one : EReal := Ideal.ofBits .f32 0x3F800000#32
abbrev half : EReal := Ideal.ofBits .f32 0x3F000000#32

/-- One pair's weighted distance: from coordinates `a`, `b`, the reference point `(p, q)` and the weight `w`,
    `w · √(((a + 1) · ½ - p)² + ((1 - (b + 1) · ½) - q)²)`. -/
def wdist (a b p q w : EReal) : EReal :=
  w * Ideal.sqrt (((a + one) * half - p) * ((a + one) * half - p)
    + ((one - (b + one) * half) - q) * ((one - (b + one) * half) - q))

/-- The weighted distance at the pair `(b, n)` of the three argument arrays. -/
def term (x0 : Pts.Idx → EReal) (x1 : Refs.Idx → EReal) (x2 : Wts.Idx → EReal) (b : Fin 1024) (n : Fin 4096) : EReal :=
  wdist (x0 (ix3 b n (0 : Fin 3))) (x0 (ix3 b n (1 : Fin 3))) (x1 (ix3 b n (0 : Fin 2))) (x1 (ix3 b n (1 : Fin 2)))
    (x2 (ix2 b n))

/-- The loss: the sum over every pair. -/
def total (x0 : Pts.Idx → EReal) (x1 : Refs.Idx → EReal) (x2 : Wts.Idx → EReal) : EReal :=
  ∑ b : Fin 1024, ∑ n : Fin 4096, term x0 x1 x2 b n

/-- Row `r` of row-tile `i` is batch row `128 i + r`. -/
abbrev rowOf (i : Fin 8) (r : Fin 128) : Fin 1024 := ⟨128 * i.val + r.val, by omega⟩
/-- Lane `l` of lane-tile `j` is point `2048 j + l`. -/
abbrev colOf (j : Fin 2) (l : Fin 2048) : Fin 4096 := ⟨2048 * j.val + l.val, by omega⟩

/-- The partial sum over tile `(i, j)`: its 128 rows, each summed over its 2048 lanes. -/
def tile (x0 : Pts.Idx → EReal) (x1 : Refs.Idx → EReal) (x2 : Wts.Idx → EReal) (i : Fin 8) (j : Fin 2) : EReal :=
  ∑ r : Fin 128, ∑ l : Fin 2048, term x0 x1 x2 (rowOf i r) (colOf j l)

/-- The tile that grid point `t` of the `8 × 2` grid works on: row-tile `t / 2`, lane-tile `t % 2`. -/
def tileAt (x0 : Pts.Idx → EReal) (x1 : Refs.Idx → EReal) (x2 : Wts.Idx → EReal) (t : Fin 16) : EReal :=
  tile x0 x1 x2 ⟨t.val / 2, by omega⟩ ⟨t.val % 2, by omega⟩

/-! ## A running total is the sum -/

/-- The running total after step `n`: `0 + q₀`, then `+ qₙ`. -/
def runSum {N : ℕ} (q : Fin N → EReal) : (n : ℕ) → n < N → EReal
  | 0, h => 0 + q ⟨0, h⟩
  | n + 1, h => runSum q n (Nat.lt_of_succ_lt h) + q ⟨n + 1, h⟩

/-- After step `n` the running total is the sum of the first `n + 1` terms. -/
theorem runSum_eq {N : ℕ} (q : Fin N → EReal) : ∀ (n : ℕ) (h : n < N),
    runSum q n h = ∑ k : Fin (n + 1), q ⟨k.val, lt_of_lt_of_le k.isLt h⟩
  | 0, h => by
    rw [runSum, zero_add, Fin.sum_univ_one]
    rfl
  | n + 1, h => by
    rw [runSum, runSum_eq q n (Nat.lt_of_succ_lt h)]
    exact (Fin.sum_univ_castSucc (fun k : Fin (n + 1 + 1) => q ⟨k.val, lt_of_lt_of_le k.isLt h⟩)).symm

/-- After the last step it is the sum of all of them. -/
theorem runSum_last {N : ℕ} (q : Fin (N + 1) → EReal) : runSum q N (Nat.lt_succ_self N) = ∑ k : Fin (N + 1), q k :=
  runSum_eq q N (Nat.lt_succ_self N)

/-! ## Sixteen tile sums are the whole sum -/

/-- The tiles partition the pairs: summing the sixteen tile sums, in grid order, gives the loss. -/
theorem sum_tiles (x0 : Pts.Idx → EReal) (x1 : Refs.Idx → EReal) (x2 : Wts.Idx → EReal) :
    ∑ t : Fin 16, tileAt x0 x1 x2 t = total x0 x1 x2 := by
  have hpts : ∑ t : Fin 16, tileAt x0 x1 x2 t = ∑ i : Fin 8, ∑ j : Fin 2, tile x0 x1 x2 i j := by
    rw [Cert.LibMoments.sum_fin_mul 8 2 (fun t : Fin 16 => tileAt x0 x1 x2 t)]
    refine Finset.sum_congr rfl fun i _ => Finset.sum_congr rfl fun j _ => ?_
    unfold tileAt
    congr 1
    · exact Fin.ext (by show (2 * i.val + j.val) / 2 = i.val; omega)
    · exact Fin.ext (by show (2 * i.val + j.val) % 2 = j.val; omega)
  have hrows : total x0 x1 x2
      = ∑ i : Fin 8, ∑ r : Fin 128, ∑ j : Fin 2, ∑ l : Fin 2048, term x0 x1 x2 (rowOf i r) (colOf j l) := by
    unfold total
    rw [Cert.LibMoments.sum_fin_mul 8 128 (fun b : Fin 1024 => ∑ n : Fin 4096, term x0 x1 x2 b n)]
    refine Finset.sum_congr rfl fun i _ => Finset.sum_congr rfl fun r _ => ?_
    exact Cert.LibMoments.sum_fin_mul 2 2048 (fun n : Fin 4096 => term x0 x1 x2 (rowOf i r) n)
  rw [hpts, hrows]
  refine Finset.sum_congr rfl fun i _ => ?_
  unfold tile
  exact Finset.sum_comm

end Cert.Spec

end
-- ==== Proof.Cases.lean ====
/-
  What one grid point leaves behind. The body adds the tile's partial sum to a one-element scratch: at the first
  point the scratch is zeroed first, so it ends at `0 + s`; at every later point it ends at `acc + s`, where
  `acc` is what the point before left and `s` is the tile's partial sum (`k0_pay3` of the five input blocks);
  at the last point the output block receives the scratch's new contents, `acc + s` again.
-/
import proofs.«178135_j77506979823876_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offset of a whole one-by-one (or whole-tile) access. -/
theorem hz : (![0, 0] : Fin 2 → Nat) = fun _ => 0 := funext fun a => by fin_cases a <;> rfl

/-- The one-element zero the first point stores into the scratch. -/
abbrev zero11 : Vec F S1x1 .f32 := broadcast S1x1 (Scalar.ofBits .f32 0x00000000#32)

/-- The zero payload is the broadcast zero (its shape cast is between equal shapes). -/
theorem pay2_eq : k0_pay2 (F := F) = zero11 := by
  unfold k0_pay2
  simp only [shapeCast_self]

/-- FIRST POINT: the scratch is zeroed, read back, and ends at `0 + s`. -/
theorem scratch_A (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 x4 : Vec F S128x2048 .f32) :
    sout0_A_0 c i arg2 harg2 arg3 harg3 arg4 harg4 arg5 harg5 arg6 harg6 arg7 harg7 arg8 harg8 hc0 hc1 x0 x1 x2 x3 x4 = addf zero11 (k0_pay3 x0 x1 x2 x3 x4) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    harg6.read_unread, View.ld_unit_zero (S := S128x2048) hz]
  unfold k0_pay1
  simp only [shapeCast_self, pay2_eq]

/-- A MIDDLE POINT: the scratch, found at `acc`, ends at `acc + s`. -/
theorem scratch_B (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 x4 : Vec F S128x2048 .f32) (xs0 : Vec F S1x1 .f32) :
    sout0_B_0 c i arg2 harg2 arg3 harg3 arg4 harg4 arg5 harg5 arg6 harg6 arg7 harg7 arg8 harg8 hc0 hc1 x0 x1 x2 x3 x4 xs0 = addf xs0 (k0_pay3 x0 x1 x2 x3 x4) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread,
    harg6.read_unread, harg8.read_unread, View.ld_unit_zero (S := S128x2048) hz, View.ld_unit_zero (S := S1x1) hz]
  unfold k0_pay1
  simp only [shapeCast_self]

/-- THE LAST POINT, the scratch: found at `acc`, it ends at `acc + s`. -/
theorem scratch_C (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 x4 : Vec F S128x2048 .f32) (xs0 : Vec F S1x1 .f32) :
    sout0_C_0 c i arg2 harg2 arg3 harg3 arg4 harg4 arg5 harg5 arg6 harg6 arg7 harg7 arg8 harg8 hc0 hc1 x0 x1 x2 x3 x4 xs0 = addf xs0 (k0_pay3 x0 x1 x2 x3 x4) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread,
    harg6.read_unread, harg8.read_unread, View.ld_unit_zero (S := S128x2048) hz, View.ld_unit_zero (S := S1x1) hz]
  unfold k0_pay1
  simp only [shapeCast_self]

/-- THE LAST POINT, the output block: it receives the scratch's new contents, `acc + s`. -/
theorem out_C (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 x4 : Vec F S128x2048 .f32) (xs0 : Vec F S1x1 .f32) :
    out0_C_5 c i arg2 harg2 arg3 harg3 arg4 harg4 arg5 harg5 arg6 harg6 arg7 harg7 arg8 harg8 hc0 hc1 x0 x1 x2 x3 x4 xs0 = addf xs0 (k0_pay3 x0 x1 x2 x3 x4) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1x1) _ hz]
  simp only [View.readAt_eq_ld, harg2.read_unread, harg3.read_unread, harg4.read_unread, harg5.read_unread,
    harg6.read_unread, harg8.read_unread, View.ld_unit_zero (S := S128x2048) hz, View.ld_unit_zero (S := S1x1) hz]
  unfold k0_pay1
  simp only [shapeCast_self]

end Cert.KernelIdeal.Acc

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.TileSum.lean ====
/-
  The partial sum of one tile. From its five input blocks (the two coordinate planes, the two reference planes and
  the weights, each `128 × 2048`) the body forms the weighted distance at every pair, sums each of the 128 rows over
  its 2048 lanes, and then sums the 128 row sums: at its one index the result is the double sum of the weighted
  distances over the tile. (A lane sum and a row sum at the ideal values are plain finite sums; the casts that keep
  the reduced axis as a unit axis do not move anything.)
-/
import proofs.«178135_j77506979823876_2_alg».proof.Proof.Gen.KernelIdeal.Skeleton
import proofs.«178135_j77506979823876_2_alg».proof.Proof.Spec
import proofs.«178135_j77506979823876_2_alg».proof.Proof.LibColumns
import Idealize.ShloMosaic.PureOps.Ideal.Laws
import Idealize.ShloMosaic.Lib.ValueIdx
import Idealize.ShloMosaic.Lib.Pipeline.Value

noncomputable section

open Idealize.ShloMosaic Idealize.ShloMosaic.ValueIdx
open scoped BigOperators

namespace Cert.KernelIdeal.Acc

open Cert.KernelIdeal Cert.KernelIdeal.Gen

/-- Inserting row `r` in front of the one remaining coordinate `p` gives the index `(r, p)`. -/
theorem lift_rows (p : Fin 1) (r : Fin 128) : reduces_S128x1_S1.lift (ix1 p) r = ix2 r p :=
  funext fun a => Fin.ext (by match a with | ⟨0, _⟩ => rfl | ⟨1, _⟩ => rfl)

/-- Inserting lane `l` after row `r` gives the index `(r, l)`. -/
theorem lift_lanes (r : Fin 128) (l : Fin 2048) : reduces_S128x2048_S128.lift (ix1 r) l = ix2 r l :=
  funext fun a => Fin.ext (by match a with | ⟨0, _⟩ => rfl | ⟨1, _⟩ => rfl)

/-- THE TILE'S PARTIAL SUM: at its one index, the sum over the 128 rows of the sum over the 2048 lanes of the weighted
    distance of the five blocks' entries at `(r, l)`. -/
theorem pay3_apply (b0 b1 b2 b3 b4 : FVec Ideal S128x2048 .f32) (y : S1x1.Idx) :
    k0_pay3 (F := Ideal) b0 b1 b2 b3 b4 y
      = ∑ r : Fin 128, ∑ l : Fin 2048,
          Cert.Spec.wdist (b0 (ix2 r l)) (b1 (ix2 r l)) (b2 (ix2 r l)) (b3 (ix2 r l)) (b4 (ix2 r l)) := by
  obtain ⟨p, q, rfl⟩ : ∃ (p : Fin 1) (q : Fin 1), y = ix2 p q := ⟨y 0, y 1, eq_ix2 y⟩
  unfold k0_pay3
  simp only [shapeCast_self]
  refine (Idealize.ShloMosaic.LibColumns.shapeCast_a_a1_apply _ _ p q).trans ?_
  refine (Ideal.multiReduction_add_single _ 0x00000000#32 reduces_S128x1_S1 (.inl rfl) rfl (ix1 p)).trans ?_
  refine Finset.sum_congr rfl fun (r : Fin 128) _ => ?_
  refine (congrArg _ (lift_rows p r)).trans ?_
  refine (Idealize.ShloMosaic.LibColumns.shapeCast_a_a1_apply _ _ r p).trans ?_
  refine (Ideal.multiReduction_add_single _ 0x00000000#32 reduces_S128x2048_S128 (.inl rfl) rfl (ix1 r)).trans ?_
  refine Finset.sum_congr rfl fun (l : Fin 2048) _ => ?_
  refine (congrArg _ (lift_lanes r l)).trans ?_
  rfl

end Cert.KernelIdeal.Acc

end
-- ==== Proof.LibPlanes.lean ====
/-
  A channel plane of an array of points. An array `x` of shape `[B, N, C]` holds `C` channels for each of
  `B × N` points. Cutting out channel `k` (the slice `[0:B, 0:N, k:k+1]`, of shape `[B, N, 1]`) and dropping the
  unit axis (a reshape to `[B, N]`) gives the plane whose entry at `(b, n)` is `x` at `(b, n, k)`.
-/
import Idealize.ShloMosaic.Lib.Pipeline.Value
import Idealize.ShloMosaic.Lib.ValueIdx

namespace Idealize.ShloMosaic.LibPlanes

open Idealize.ShloMosaic Idealize.ShloMosaic.ValueIdx

variable {α : Type}

/-- Channel `k` of a `[B, N, C]` array, sliced out as `[B, N, 1]` and reshaped to `[B, N]`, reads at `(b, n)` the
    array at `(b, n, k)`: the slice keeps the first two coordinates and offsets the third by `k`; the reshape keeps the
    row-major position, which the unit axis does not move. -/
theorem plane_apply {B N C : ℕ} (k : Fin C) (x : (⟨3, ![B, N, C]⟩ : Shape).Idx → α)
    (hs : (⟨3, ![B, N, C]⟩ : Shape).Slices ![0, 0, k.val] ⟨3, ![B, N, 1]⟩)
    (hc : (⟨3, ![B, N, 1]⟩ : Shape).ShapeCasts ⟨2, ![B, N]⟩) (b : Fin B) (n : Fin N) :
    shapeCast ⟨2, ![B, N]⟩ (extractStridedSlice ⟨3, ![B, N, 1]⟩ ![0, 0, k.val] x hs) hc (ix2 b n) = x (ix3 b n k) := by
  refine (shapeCast_apply _ hc (ix2 b n) (ix3 b n (0 : Fin 1)) ?_).trans ?_
  · rw [Shape.rowMajor_val_three, Shape.rowMajor_val_two]
    show (b.val * N + n.val) * 1 + 0 = b.val * N + n.val
    omega
  · exact extractStridedSlice_apply ![0, 0, k.val] x hs (ix3 b n (0 : Fin 1)) (ix3 b n k) (fun a => match a with
      | ⟨0, _⟩ => by show b.val = 0 + b.val; omega
      | ⟨1, _⟩ => by show n.val = 0 + n.val; omega
      | ⟨2, _⟩ => by show k.val = k.val + 0; omega)

end Idealize.ShloMosaic.LibPlanes
-- ==== Proof.Blocks.lean ====
/-
  What the input blocks hold. Before the region the program cuts the two coordinate planes out of the points and
  the two planes out of the reference points (a slice of one channel, then a reshape that drops the unit axis); the
  weights are used as they are. At grid point `t` every input window's block is tile `(t / 2, t % 2)` of its plane:
  entry `(r, l)` of the block is the plane at `(128 (t / 2) + r, 2048 (t % 2) + l)`. So the partial sum the body
  forms at point `t` is the tile sum `Spec.tileAt` of the three arguments.
-/
import proofs.«178135_j77506979823876_2_alg».proof.Proof.Gen.KernelIdeal.Frame
import proofs.«178135_j77506979823876_2_alg».proof.Proof.Spec
import proofs.«178135_j77506979823876_2_alg».proof.Proof.TileSum
import proofs.«178135_j77506979823876_2_alg».proof.Proof.LibPlanes
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- A grid point as a number below sixteen. -/
abbrev pt16 (t : Fin cfg0.N) : Fin 16 := ⟨t.val, lt_of_lt_of_eq t.isLt N_0⟩

/-! ## The index maps: block `(t / 2, t % 2)` at point `t`, for every input window (decided once over the grid) -/

theorem idx_w0 : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

theorem idx_w1 : ∀ t : Fin cfg0.N, win0_1.index t 0 = t.val / 2 ∧ win0_1.index t 1 = t.val % 2 :=
  (by decide +kernel : ∀ t : Fin grid0.N, win0_1.index t 0 = t.val / 2 ∧ win0_1.index t 1 = t.val % 2)

theorem idx_w2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem idx_w3 : ∀ t : Fin cfg0.N, win0_3.index t 0 = t.val / 2 ∧ win0_3.index t 1 = t.val % 2 :=
  (by decide +kernel : ∀ t : Fin grid0.N, win0_3.index t 0 = t.val / 2 ∧ win0_3.index t 1 = t.val % 2)

theorem idx_w4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)

/-! ## The planes the region finds, read at a pair `(b, n)` -/

/-- `main_v1` is the first coordinate plane: at `(b, n)` it holds the argument at `(b, n, 0)`. -/
theorem V_main_v1 (c : Dev nD) (b : Fin 1024) (n : Fin 4096) :
    V m c main_v1 (ix2 b n) = m ((c : Thread nD τ).loc main_arg0) (ix3 b n (0 : Fin 3)) := by
  have e : (V m c main_v1 : S1024x4096.Idx → EReal)
      = shapeCast S1024x4096 (extractStridedSlice S1024x4096x1 ![0, 0, 0] (m ((c : Thread nD τ).loc main_arg0))
          slices_S1024x4096x3_S1024x4096x1_0_0_0) shapeCasts_S1024x4096x1_S1024x4096 := by
    show StableHlo.after hostOps0 (fun b => m (c, b)) (Proc.devRef .tc main_v1) = _
    after_results
    rfl
  exact (congrFun e (ix2 b n)).trans
    (Idealize.ShloMosaic.LibPlanes.plane_apply (0 : Fin 3) (m ((c : Thread nD τ).loc main_arg0)) slices_S1024x4096x3_S1024x4096x1_0_0_0
      shapeCasts_S1024x4096x1_S1024x4096 b n)

/-- `main_v3` is the second coordinate plane: at `(b, n)` it holds the argument at `(b, n, 1)`. -/
theorem V_main_v3 (c : Dev nD) (b : Fin 1024) (n : Fin 4096) :
    V m c main_v3 (ix2 b n) = m ((c : Thread nD τ).loc main_arg0) (ix3 b n (1 : Fin 3)) := by
  have e : (V m c main_v3 : S1024x4096.Idx → EReal)
      = shapeCast S1024x4096 (extractStridedSlice S1024x4096x1 ![0, 0, 1] (m ((c : Thread nD τ).loc main_arg0))
          slices_S1024x4096x3_S1024x4096x1_0_0_1) shapeCasts_S1024x4096x1_S1024x4096 := by
    show StableHlo.after hostOps0 (fun b => m (c, b)) (Proc.devRef .tc main_v3) = _
    after_results
    rfl
  exact (congrFun e (ix2 b n)).trans
    (Idealize.ShloMosaic.LibPlanes.plane_apply (1 : Fin 3) (m ((c : Thread nD τ).loc main_arg0)) slices_S1024x4096x3_S1024x4096x1_0_0_1
      shapeCasts_S1024x4096x1_S1024x4096 b n)

/-- `main_v5` is the reference points' first plane: at `(b, n)` it holds the argument at `(b, n, 0)`. -/
theorem V_main_v5 (c : Dev nD) (b : Fin 1024) (n : Fin 4096) :
    V m c main_v5 (ix2 b n) = m ((c : Thread nD τ).loc main_arg1) (ix3 b n (0 : Fin 2)) := by
  have e : (V m c main_v5 : S1024x4096.Idx → EReal)
      = shapeCast S1024x4096 (extractStridedSlice S1024x4096x1 ![0, 0, 0] (m ((c : Thread nD τ).loc main_arg1))
          slices_S1024x4096x2_S1024x4096x1_0_0_0) shapeCasts_S1024x4096x1_S1024x4096 := by
    show StableHlo.after hostOps0 (fun b => m (c, b)) (Proc.devRef .tc main_v5) = _
    after_results
    rfl
  exact (congrFun e (ix2 b n)).trans
    (Idealize.ShloMosaic.LibPlanes.plane_apply (0 : Fin 2) (m ((c : Thread nD τ).loc main_arg1)) slices_S1024x4096x2_S1024x4096x1_0_0_0
      shapeCasts_S1024x4096x1_S1024x4096 b n)

/-- `main_v7` is the reference points' second plane: at `(b, n)` it holds the argument at `(b, n, 1)`. -/
theorem V_main_v7 (c : Dev nD) (b : Fin 1024) (n : Fin 4096) :
    V m c main_v7 (ix2 b n) = m ((c : Thread nD τ).loc main_arg1) (ix3 b n (1 : Fin 2)) := by
  have e : (V m c main_v7 : S1024x4096.Idx → EReal)
      = shapeCast S1024x4096 (extractStridedSlice S1024x4096x1 ![0, 0, 1] (m ((c : Thread nD τ).loc main_arg1))
          slices_S1024x4096x2_S1024x4096x1_0_0_1) shapeCasts_S1024x4096x1_S1024x4096 := by
    show StableHlo.after hostOps0 (fun b => m (c, b)) (Proc.devRef .tc main_v7) = _
    after_results
    rfl
  exact (congrFun e (ix2 b n)).trans
    (Idealize.ShloMosaic.LibPlanes.plane_apply (1 : Fin 2) (m ((c : Thread nD τ).loc main_arg1)) slices_S1024x4096x2_S1024x4096x1_0_0_1
      shapeCasts_S1024x4096x1_S1024x4096 b n)

/-! ## A block's entry is its plane's entry in tile `(t / 2, t % 2)` -/

theorem blk0_at (c : Dev nD) (t : Fin cfg0.N) (r : Fin 128) (l : Fin 2048) :
    iblk m c 0 t (ix2 r l) = V m c main_v1 (ix2 (Cert.Spec.rowOf ⟨t.val / 2, by have := t.isLt; have hN : cfg0.N = 16 := N_0; omega⟩ r) (Cert.Spec.colOf ⟨t.val % 2, by omega⟩ l)) := by
  unfold iblk
  rw [View.read_apply]
  show V m c main_v1 (((cfg0.win 0).blk t).view.emb (ix2 r l)) = _
  refine congrArg (V m c main_v1) (funext fun a => Fin.ext ?_)
  have hi := idx_w0 t
  match a with
  | ⟨0, _⟩ =>
    show win0_0.index t 0 * 128 + 1 * r.val = 128 * (t.val / 2) + r.val
    rw [hi.1]; omega
  | ⟨1, _⟩ =>
    show win0_0.index t 1 * 2048 + 1 * l.val = 2048 * (t.val % 2) + l.val
    rw [hi.2]; omega

theorem blk1_at (c : Dev nD) (t : Fin cfg0.N) (r : Fin 128) (l : Fin 2048) :
    iblk m c 1 t (ix2 r l) = V m c main_v3 (ix2 (Cert.Spec.rowOf ⟨t.val / 2, by have := t.isLt; have hN : cfg0.N = 16 := N_0; omega⟩ r) (Cert.Spec.colOf ⟨t.val % 2, by omega⟩ l)) := by
  unfold iblk
  rw [View.read_apply]
  show V m c main_v3 (((cfg0.win 1).blk t).view.emb (ix2 r l)) = _
  refine congrArg (V m c main_v3) (funext fun a => Fin.ext ?_)
  have hi := idx_w1 t
  match a with
  | ⟨0, _⟩ =>
    show win0_1.index t 0 * 128 + 1 * r.val = 128 * (t.val / 2) + r.val
    rw [hi.1]; omega
  | ⟨1, _⟩ =>
    show win0_1.index t 1 * 2048 + 1 * l.val = 2048 * (t.val % 2) + l.val
    rw [hi.2]; omega

theorem blk2_at (c : Dev nD) (t : Fin cfg0.N) (r : Fin 128) (l : Fin 2048) :
    iblk m c 2 t (ix2 r l) = V m c main_v5 (ix2 (Cert.Spec.rowOf ⟨t.val / 2, by have := t.isLt; have hN : cfg0.N = 16 := N_0; omega⟩ r) (Cert.Spec.colOf ⟨t.val % 2, by omega⟩ l)) := by
  unfold iblk
  rw [View.read_apply]
  show V m c main_v5 (((cfg0.win 2).blk t).view.emb (ix2 r l)) = _
  refine congrArg (V m c main_v5) (funext fun a => Fin.ext ?_)
  have hi := idx_w2 t
  match a with
  | ⟨0, _⟩ =>
    show win0_2.index t 0 * 128 + 1 * r.val = 128 * (t.val / 2) + r.val
    rw [hi.1]; omega
  | ⟨1, _⟩ =>
    show win0_2.index t 1 * 2048 + 1 * l.val = 2048 * (t.val % 2) + l.val
    rw [hi.2]; omega

theorem blk3_at (c : Dev nD) (t : Fin cfg0.N) (r : Fin 128) (l : Fin 2048) :
    iblk m c 3 t (ix2 r l) = V m c main_v7 (ix2 (Cert.Spec.rowOf ⟨t.val / 2, by have := t.isLt; have hN : cfg0.N = 16 := N_0; omega⟩ r) (Cert.Spec.colOf ⟨t.val % 2, by omega⟩ l)) := by
  unfold iblk
  rw [View.read_apply]
  show V m c main_v7 (((cfg0.win 3).blk t).view.emb (ix2 r l)) = _
  refine congrArg (V m c main_v7) (funext fun a => Fin.ext ?_)
  have hi := idx_w3 t
  match a with
  | ⟨0, _⟩ =>
    show win0_3.index t 0 * 128 + 1 * r.val = 128 * (t.val / 2) + r.val
    rw [hi.1]; omega
  | ⟨1, _⟩ =>
    show win0_3.index t 1 * 2048 + 1 * l.val = 2048 * (t.val % 2) + l.val
    rw [hi.2]; omega

theorem blk4_at (c : Dev nD) (t : Fin cfg0.N) (r : Fin 128) (l : Fin 2048) :
    iblk m c 4 t (ix2 r l) = V m c main_arg2 (ix2 (Cert.Spec.rowOf ⟨t.val / 2, by have := t.isLt; have hN : cfg0.N = 16 := N_0; omega⟩ r) (Cert.Spec.colOf ⟨t.val % 2, by omega⟩ l)) := by
  unfold iblk
  rw [View.read_apply]
  show V m c main_arg2 (((cfg0.win 4).blk t).view.emb (ix2 r l)) = _
  refine congrArg (V m c main_arg2) (funext fun a => Fin.ext ?_)
  have hi := idx_w4 t
  match a with
  | ⟨0, _⟩ =>
    show win0_4.index t 0 * 128 + 1 * r.val = 128 * (t.val / 2) + r.val
    rw [hi.1]; omega
  | ⟨1, _⟩ =>
    show win0_4.index t 1 * 2048 + 1 * l.val = 2048 * (t.val % 2) + l.val
    rw [hi.2]; omega

/-! ## The partial sum at point `t` is the tile sum -/

/-- The body's partial sum at grid point `t`, formed from the five input blocks there, is at its one index the sum of
    the weighted distances over tile `(t / 2, t % 2)` of the arguments. -/
theorem part_eq (c : Dev nD) (t : Fin cfg0.N) (y : S1x1.Idx) :
    k0_pay3 (F := Ideal) (iblk m c 0 t) (iblk m c 1 t) (iblk m c 2 t) (iblk m c 3 t) (iblk m c 4 t) y
      = Cert.Spec.tileAt (m ((c : Thread nD τ).loc main_arg0)) (m ((c : Thread nD τ).loc main_arg1))
          (m ((c : Thread nD τ).loc main_arg2)) (pt16 t) := by
  refine (pay3_apply (iblk m c 0 t) (iblk m c 1 t) (iblk m c 2 t) (iblk m c 3 t) (iblk m c 4 t) y).trans ?_
  unfold Cert.Spec.tileAt Cert.Spec.tile
  refine Finset.sum_congr rfl fun (r : Fin 128) _ => Finset.sum_congr rfl fun (l : Fin 2048) _ => ?_
  unfold Cert.Spec.term
  rw [blk0_at m c t r l, blk1_at m c t r l, blk2_at m c t r l, blk3_at m c t r l, blk4_at m c t r l,
    V_main_v1, V_main_v3, V_main_v5, V_main_v7, V_main_arg2 m c]

end Cert.KernelIdeal.Acc

end
-- ==== Proof.Chain.lean ====
/-
  The running total. After grid point `n` the one-element scratch holds `0 + s₀ + s₁ + … + sₙ`, the tile sums added
  one after the other in grid order: the first point zeroes the scratch and adds its tile sum, every later point adds
  its own to what the point before left. At the last point the output block receives that total too. By induction on
  the point.
-/
import proofs.«178135_j77506979823876_2_alg».proof.Proof.Gen.KernelIdeal.Frame
import proofs.«178135_j77506979823876_2_alg».proof.Proof.Spec
import proofs.«178135_j77506979823876_2_alg».proof.Proof.Cases
import proofs.«178135_j77506979823876_2_alg».proof.Proof.Blocks
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The sixteen tile sums of core `c`'s arguments, in grid order. -/
abbrev tiles (c : Dev nD) : Fin cfg0.N → EReal := fun t =>
  Cert.Spec.tileAt (m ((c : Thread nD τ).loc main_arg0)) (m ((c : Thread nD τ).loc main_arg1))
    (m ((c : Thread nD τ).loc main_arg2)) (pt16 t)

/-- The stored zero reads `0`. -/
theorem zero11_apply (y : S1x1.Idx) : (zero11 (F := Ideal)) y = 0 := Ideal.ofBits_zero_f32

/-- THE SCRATCH after point `n` holds the running total of the tile sums up to `n`. -/
theorem scratch_eq (c : Dev nD) : ∀ (n : ℕ) (h : n < cfg0.N) (y : S1x1.Idx),
    (outsAt0 m c n h).2 y = Cert.Spec.runSum (tiles m c) n h
  | 0, h, y => by
    rw [outsAt0_A m c ⟨0, h⟩ rfl (by show ¬(0 % 16 = 15); decide)]
    dsimp only
    rw [scratch_A]
    show (zero11 (F := Ideal)) y + k0_pay3 (F := Ideal) _ _ _ _ _ y = 0 + tiles m c ⟨0, h⟩
    rw [zero11_apply, part_eq]
  | n + 1, h, y => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [scratch_C]
      show (outsAt0 m c n _).2 y + k0_pay3 (F := Ideal) _ _ _ _ _ y
        = Cert.Spec.runSum (tiles m c) n _ + tiles m c ⟨n + 1, h⟩
      rw [scratch_eq c n _ y, part_eq]
    · rw [outsAt0_B m c ⟨n + 1, h⟩ h0 h1]
      dsimp only
      rw [scratch_B]
      show (outsAt0 m c n _).2 y + k0_pay3 (F := Ideal) _ _ _ _ _ y
        = Cert.Spec.runSum (tiles m c) n _ + tiles m c ⟨n + 1, h⟩
      rw [scratch_eq c n _ y, part_eq]

/-- THE OUTPUT BLOCK after the last point holds the running total of all sixteen tile sums. -/
theorem out_last (c : Dev nD) (h : 15 < cfg0.N) (y : S1x1.Idx) :
    (outsAt0 m c 15 h).1 y = Cert.Spec.runSum (tiles m c) 15 h := by
  rw [outsAt0_C m c ⟨15, h⟩ (by show ¬(15 % 16 = 0); decide) rfl]
  dsimp only
  rw [out_C]
  show (outsAt0 m c 14 _).2 y + k0_pay3 (F := Ideal) _ _ _ _ _ y
    = Cert.Spec.runSum (tiles m c) 14 _ + tiles m c ⟨15, h⟩
  rw [scratch_eq m c 14 _ y, part_eq]

end Cert.KernelIdeal.Acc

end
-- ==== Proof.Final.lean ====
/-
  From the running total to the result. The output window is one `1 × 1` block, written back once, after the last
  grid point, when it holds the running total of all sixteen tile sums: the loss. That block is the whole result
  array of the region; the program then reshapes it to a scalar, which holds the same number.
-/
import proofs.«178135_j77506979823876_2_alg».proof.Proof.Gen.KernelIdeal.Frame
import proofs.«178135_j77506979823876_2_alg».proof.Proof.Spec
import proofs.«178135_j77506979823876_2_alg».proof.Proof.Chain
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The loss of core `c`'s arguments. -/
abbrev loss (c : Dev nD) : EReal :=
  Cert.Spec.total (m ((c : Thread nD τ).loc main_arg0)) (m ((c : Thread nD τ).loc main_arg1))
    (m ((c : Thread nD τ).loc main_arg2))

/-- The last grid point. -/
abbrev tLast : Fin cfg0.N := ⟨15, by rw [show cfg0.N = 16 from N_0]; decide⟩

/-- After the last point the output block holds the loss: the running total of all sixteen tile sums, which
    partition the pairs. -/
theorem out_total (c : Dev nD) (y : S1x1.Idx) : (outsAt0 m c tLast.val tLast.isLt).1 y = loss m c := by
  rw [out_last m c tLast.isLt y, Cert.Spec.runSum_eq]
  exact Cert.Spec.sum_tiles _ _ _

/-- The region's result array holding the loss at its one index. -/
abbrev lossArr (c : Dev nD) : Buf (Elt Ideal) ((c : Thread nD τ).loc main_v8) := fun _ => loss m c

/-- The one write-back, after the last point, writes the loss. -/
theorem flushed_eq (c : Dev nD) (t : Fin cfg0.N) (hf : (cfg0.win 5).flush t = true) :
    (dats m 0 c).flushed 5 t = ((cfg0.win 5).blk t).view.read (Elt Ideal) (lossArr m c) := by
  have hN : cfg0.N = 16 := N_0
  have h15 : t.val = 15 := by have := (flush0_5 t).mp hf; have := t.isLt; omega
  obtain rfl : t = tLast := Fin.ext h15
  show (cfg0.win 5).cut (grid0.coords tLast) ((dats m 0 c).after 5 tLast) = _
  rw [after0_5]
  funext y
  rw [View.read_apply]
  show (outsAt0 m c tLast.val tLast.isLt).1 y = loss m c
  exact out_total m c y

/-- So the region's result array ends holding the loss (its one block, written after the last point, is all of it). -/
theorem final (c : Dev nD) : (dats m 0 c).arrAt 5 cfg0.N = lossArr m c :=
  (dats m 0 c).arrAt_eq_of_cover 5 (lossArr m c) (flushed_eq m c) fun i =>
    ⟨tLast, (flush0_5 tLast).mpr rfl, by
      show i ∈ ((View.whole main_v8).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 1 from by decide +kernel]
        omega⟩

/-- The program's result: the region's `1 × 1` array reshaped to a scalar, which holds the loss. -/
theorem result_eq (c : Dev nD) :
    Pipeline.afterTail₀ cfgs (dats m) 0 (V0 m) [hostOps1] c main_v9 = fun _ => loss m c := by
  unfold Pipeline.afterTail₀
  show StableHlo.after hostOps1 _ (Proc.devRef .tc main_v9) = _
  after_results
  have e : Pipeline.withArrays (cfgs 0).spec c (V0 m c) (fun w => (dats m 0 c).arrAt w (cfgs 0).N)
      (Proc.devRef .tc main_v8) = lossArr m c :=
    (Pipeline.withArrays_arr spec0 launch0.win.arr_inj c _ _ 5).trans (final m c)
  funext i
  show shapeCast S_ (Pipeline.withArrays (cfgs 0).spec c (V0 m c) (fun w => (dats m 0 c).arrAt w (cfgs 0).N)
      (Proc.devRef .tc main_v8)) shapeCasts_S1x1_S_ i = loss m c
  rw [e]
  rfl

/-- THE RUN, READ: every weakly fair execution terminates with the result buffer at the loss of the arguments and the
    arguments unchanged. -/
theorem run : θ_run defs (onTc (τ := τ) (main (F := Ideal))) ⟨m, fun _ => 0, ρ⟩ fun r => ∀ c : Dev nD,
      r.2.mem ((c.tc : Thread nD τ).loc main_v9) = (fun _ => loss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c)))⟩)
    (run_main m ρ)

end Cert.KernelIdeal.Acc

end
-- ==== Proof.RefSide.lean ====
/-
  The reference, read at an index. It forms the two projected coordinates as planes, stacks them along a new last
  axis, subtracts the reference points, squares, sums the two squares of each pair (from `0`), takes the square
  root, multiplies by the weight, and sums everything (from `0`). Read stage by stage at a pair `(b, n)`, the
  weighted array holds `Spec.term` there, and the result is `Spec.total`: the sum over all pairs.
-/
import proofs.«178135_j77506979823876_2_alg».proof.Proof.Gen.ReferenceIdeal.Read
import proofs.«178135_j77506979823876_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Read

variable (x0 : (⟨S1024x4096x3, .f32⟩ : BufTy).Contents (Elt Ideal))
  (x1 : (⟨S1024x4096x2, .f32⟩ : BufTy).Contents (Elt Ideal))
  (x2 : (⟨S1024x4096, .f32⟩ : BufTy).Contents (Elt Ideal))

/-! ## Where each layout step reads -/

/-- Dropping the unit axis: pair `(b, n)` of the plane is `(b, n, 0)` of the one-channel slice (first coordinate). -/
theorem idx_plane0 (b : Fin 1024) (n : Fin 4096) : idx_main_v1 (ix2 b n) = ix3 b n (0 : Fin 1) :=
  funext fun a => Fin.ext (by
    match a with
    | ⟨0, _⟩ => show (b.val * 4096 + n.val) / 4096 = b.val; omega
    | ⟨1, _⟩ => show (b.val * 4096 + n.val) / 1 % 4096 = n.val; omega
    | ⟨2, _⟩ => rfl)

/-- The same for the second coordinate's plane. -/
theorem idx_plane1 (b : Fin 1024) (n : Fin 4096) : idx_main_v7 (ix2 b n) = ix3 b n (0 : Fin 1) :=
  funext fun a => Fin.ext (by
    match a with
    | ⟨0, _⟩ => show (b.val * 4096 + n.val) / 4096 = b.val; omega
    | ⟨1, _⟩ => show (b.val * 4096 + n.val) / 1 % 4096 = n.val; omega
    | ⟨2, _⟩ => rfl)

/-- The slice of channel 0 reads the points at `(b, n, 0)`. -/
theorem idx_ch0 (b : Fin 1024) (n : Fin 4096) : idx_main_v0 (ix3 b n (0 : Fin 1)) = ix3 b n (0 : Fin 3) :=
  funext fun a => Fin.ext (by match a with | ⟨0, _⟩ => rfl | ⟨1, _⟩ => rfl | ⟨2, _⟩ => rfl)

/-- The slice of channel 1 reads the points at `(b, n, 1)`. -/
theorem idx_ch1 (b : Fin 1024) (n : Fin 4096) : idx_main_v6 (ix3 b n (0 : Fin 1)) = ix3 b n (1 : Fin 3) :=
  funext fun a => Fin.ext (by match a with | ⟨0, _⟩ => rfl | ⟨1, _⟩ => rfl | ⟨2, _⟩ => rfl)

/-- A plane given a trailing unit axis reads the plane at `(b, n)`. -/
theorem idx_unit0 (b : Fin 1024) (n : Fin 4096) (u : Fin 1) : idx_main_v25 (ix3 b n u) = ix2 b n :=
  funext fun a => Fin.ext (by match a with | ⟨0, _⟩ => rfl | ⟨1, _⟩ => rfl)
theorem idx_unit1 (b : Fin 1024) (n : Fin 4096) (u : Fin 1) : idx_main_v26 (ix3 b n u) = ix2 b n :=
  funext fun a => Fin.ext (by match a with | ⟨0, _⟩ => rfl | ⟨1, _⟩ => rfl)

/-- The sum over the last axis reads `(b, n, k)` for `k = 0, 1`. -/
theorem idx_pair (b : Fin 1024) (n : Fin 4096) (k : Fin 2) : idx_main_v30 (ix2 b n) k = ix3 b n k :=
  funext fun a => Fin.ext (by match a with | ⟨0, _⟩ => rfl | ⟨1, _⟩ => rfl | ⟨2, _⟩ => rfl)

/-! ## The two projected coordinates -/

/-- The first projected coordinate at `(b, n)`: `(x + 1) · ½`. -/
theorem v5_at (b : Fin 1024) (n : Fin 4096) :
    val_main_v5 (F := Ideal) x0 (ix2 b n) = (x0 (ix3 b n (0 : Fin 3)) + Cert.Spec.one) * Cert.Spec.half := by
  rw [val_main_v5_apply, val_main_v3_apply, val_main_v1_apply, val_main_v0_apply, val_main_v2_apply,
    val_main_cst_apply, val_main_v4_apply, val_main_cst_0_apply, idx_plane0, idx_ch0]
  rfl

/-- The second projected coordinate at `(b, n)`: `1 - (y + 1) · ½`. -/
theorem v13_at (b : Fin 1024) (n : Fin 4096) :
    val_main_v13 (F := Ideal) x0 (ix2 b n)
      = Cert.Spec.one - (x0 (ix3 b n (1 : Fin 3)) + Cert.Spec.one) * Cert.Spec.half := by
  rw [val_main_v13_apply, val_main_v12_apply, val_main_cst_3_apply, val_main_v11_apply, val_main_v9_apply,
    val_main_v7_apply, val_main_v6_apply, val_main_v8_apply, val_main_cst_1_apply, val_main_v10_apply,
    val_main_cst_2_apply, idx_plane1, idx_ch1]
  rfl

/-! ## The stacked pair of coordinates -/

/-- Channel 0 of the stacked array is the first projected coordinate. -/
theorem v27_at0 (b : Fin 1024) (n : Fin 4096) :
    val_main_v27 (F := Ideal) x0 (ix3 b n (0 : Fin 2)) = val_main_v25 (F := Ideal) x0 (ix3 b n (0 : Fin 1)) := by
  unfold val_main_v27
  exact concatenate_pair_apply_left (t := S1024x4096x2) (s₁ := S1024x4096x1) (s₂ := S1024x4096x1) (2 : Fin 3) _ _ _
    (ix3 b n (0 : Fin 2)) (by rfl) (ix3 b n (0 : Fin 1))
    (fun a => by match a with | ⟨0, _⟩ => rfl | ⟨1, _⟩ => rfl | ⟨2, _⟩ => rfl)

/-- Channel 1 of the stacked array is the second projected coordinate. -/
theorem v27_at1 (b : Fin 1024) (n : Fin 4096) :
    val_main_v27 (F := Ideal) x0 (ix3 b n (1 : Fin 2)) = val_main_v26 (F := Ideal) x0 (ix3 b n (0 : Fin 1)) := by
  unfold val_main_v27
  exact concatenate_pair_apply_right (t := S1024x4096x2) (s₁ := S1024x4096x1) (s₂ := S1024x4096x1) (2 : Fin 3) _ _ _
    (ix3 b n (1 : Fin 2)) (by rfl) (by rfl) (ix3 b n (0 : Fin 1))
    (fun a ha => by
      match a with
      | ⟨0, _⟩ => rfl
      | ⟨1, _⟩ => rfl
      | ⟨2, _⟩ => exact absurd rfl ha)
    rfl

/-! ## The weighted distances and their sum -/

/-- The weighted array at `(b, n)` is the pair's weighted distance. -/
theorem v32_at (b : Fin 1024) (n : Fin 4096) :
    val_main_v32 (F := Ideal) x0 x1 x2 (ix2 b n) = Cert.Spec.term x0 x1 x2 b n := by
  rw [val_main_v32_apply, val_main_v31_apply, val_main_v30_apply, val_main_cst_6_apply, Fin.sum_univ_two,
    val_main_v29_apply, val_main_v29_apply, val_main_v28_apply, val_main_v28_apply, idx_pair, idx_pair,
    v27_at0, v27_at1, val_main_v25_apply, val_main_v26_apply, idx_unit0, idx_unit1, v5_at, v13_at]
  simp only [Ideal.mulf_def, Ideal.subf_def, Ideal.hostUnary_sqrt_def, Ideal.ofBits_def, Ideal.ofBits_zero_f32,
    zero_add]
  rfl

/-- THE REFERENCE'S RESULT is the loss: `0` plus the sum of the weighted distances over every pair. -/
theorem v33_eq (i : S_.Idx) : val_main_v33 (F := Ideal) x0 x1 x2 i = Cert.Spec.total x0 x1 x2 := by
  rw [val_main_v33_apply, val_main_cst_7_apply, sum_idx2]
  simp only [Ideal.ofBits_def, Ideal.ofBits_zero_f32, zero_add]
  unfold Cert.Spec.total
  exact Finset.sum_congr rfl fun b _ => Finset.sum_congr rfl fun n _ => v32_at x0 x1 x2 b n

end Cert.ReferenceIdeal.RefValue

end
-- ==== Proof.lean ====
/-
  The weighted point-distance loss, two ways.

  For points `(x, y, z)`, reference points `(p, q)` and weights `w`, all indexed by a batch row `b < 1024` and a
  point `n < 4096`, the loss is the sum over every pair `(b, n)` of
  `w · √(((x + 1) · ½ - p)² + ((1 - (y + 1) · ½) - q)²)`. (The third coordinate `z` does not enter.)

  The kernel cuts the `(b, n)` plane into an `8 × 2` grid of `128 × 2048` tiles. At each grid point it sums the
  weighted distances of its tile (each row over its lanes, then the rows) and adds that partial sum to a one-element
  scratch, which the first point zeroes; after the last point it copies the scratch to the output. The reference
  forms the weighted distances of all pairs and sums them in one sum. Over the extended reals both are
  `0 + (the sum over all pairs)`: the tiles partition the pairs, and a running total of the sixteen tile sums is
  their sum because addition of extended reals is commutative and associative, at the infinities too
  (Proof/Spec.lean `runSum_eq`, `sum_tiles`). Both sides use the same literals `1` and `½` and the same square
  root, so nothing else needs comparing, and the precondition that the inputs are finite is not used.

  The modules: Proof/Spec.lean (the mathematics), Proof/TileSum.lean (a tile's partial sum as a double sum),
  Proof/Cases.lean (what one grid point leaves in the scratch and in the output), Proof/Blocks.lean (an input block
  is a tile of an argument's plane), Proof/Chain.lean (the scratch after each point is the running total),
  Proof/Final.lean (the written-back block, the result buffer, the kernel's run), Proof/RefSide.lean (the reference
  read at an index). The kernels' frames are the generated ones; the reference's frame is its generated run.
-/
import proofs.«178135_j77506979823876_2_alg».proof.Defs
import proofs.«178135_j77506979823876_2_alg».proof.Proof.Gen.Kernel
import proofs.«178135_j77506979823876_2_alg».proof.Proof.Gen.Kernel.Skeleton
import proofs.«178135_j77506979823876_2_alg».proof.Proof.Gen.Kernel.Launch
import proofs.«178135_j77506979823876_2_alg».proof.Proof.Gen.Kernel.Points
import proofs.«178135_j77506979823876_2_alg».proof.Proof.Gen.Kernel.Frame
import proofs.«178135_j77506979823876_2_alg».proof.Proof.Gen.KernelIdeal
import proofs.«178135_j77506979823876_2_alg».proof.Proof.Gen.KernelIdeal.Skeleton
import proofs.«178135_j77506979823876_2_alg».proof.Proof.Gen.KernelIdeal.Launch
import proofs.«178135_j77506979823876_2_alg».proof.Proof.Gen.KernelIdeal.Points
import proofs.«178135_j77506979823876_2_alg».proof.Proof.Gen.KernelIdeal.Frame
import proofs.«178135_j77506979823876_2_alg».proof.Proof.Gen.ReferenceIdeal
import proofs.«178135_j77506979823876_2_alg».proof.Proof.Gen.ReferenceIdeal.Run
import proofs.«178135_j77506979823876_2_alg».proof.Proof.Gen.ReferenceIdeal.Read
import proofs.«178135_j77506979823876_2_alg».proof.Proof.Gen.Pre_finite_inputs
import proofs.«178135_j77506979823876_2_alg».proof.Proof.Final
import proofs.«178135_j77506979823876_2_alg».proof.Proof.RefSide
import Idealize.ShloMosaic.Adequacy
import Idealize.ShloMosaic.Init

noncomputable section

namespace Cert.Proof

open Idealize.ShloMosaic Idealize.SL.Sem

/-- The kernel as printed runs, and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments alone: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote nothing. -/
theorem preserves : Cert.preserves_Kernel_KernelIdeal := trivial

/-- From memories that agree on the arguments, the idealized kernel's result buffer ends at the loss of its
    arguments (the running total of the tile sums) and the idealized reference's at the loss of its own (one sum over
    all pairs): equal extended reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun _ => Cert.KernelIdeal.Acc.loss m c), Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  funext i
  rw [Cert.ReferenceIdeal.RefValue.v33_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
